-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x8192 : Shape := ⟨3, ![128, 64, 8192]⟩
abbrev S128 : Shape := ⟨1, ![128]⟩
abbrev S16x64x64 : Shape := ⟨3, ![16, 64, 64]⟩
abbrev S16x64 : Shape := ⟨2, ![16, 64]⟩
abbrev S_ : Shape := ⟨0, ![]⟩

class Facts : Prop where
  bcast_S_S128x64x8192 : S_.BroadcastsInDim S128x64x8192 (![] : Fin 0 → Fin S128x64x8192.rank)
  reducesTo_S128x64x8192_S_d0_1_2 : S128x64x8192.ReducesTo [0, 1, 2] S_
  h_S_ : 0 < S_.numel
  bcast_S_S16x64x64 : S_.BroadcastsInDim S16x64x64 (![] : Fin 0 → Fin S16x64x64.rank)
  reducesTo_S16x64x64_S_d0_1_2 : S16x64x64.ReducesTo [0, 1, 2] S_
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S128x64x8192 .f32) (main_arg1 : IVec S128 32) (main_arg2 : FVec F S16x64x64 .f32) (main_arg3 : FVec F S16x64 .f32) : IVec S_ 1 :=
  let main_v0 : FVec F S128x64x8192 .f32 := Host.absf main_arg0
  let main_cst : FVec F S_ .f32 := constant S_ .f32 0x7F800000#32
  let main_v1 : FVec F S128x64x8192 .f32 := broadcastInDim S128x64x8192 ![] bcast_S_S128x64x8192 main_cst
  let main_v2 : IVec S128x64x8192 1 := cmpf .olt main_v0 main_v1
  let main_c : IVec S_ 1 := constantI S_ 1 1#1
  let main_v3 : IVec S_ 1 := (fun x v => Host.reduce IntOp.andi x v reducesTo_S128x64x8192_S_d0_1_2 h_S_) main_v2 main_c
  let main_v4 : FVec F S16x64x64 .f32 := Host.absf main_arg2
  let main_cst_0 : FVec F S_ .f32 := constant S_ .f32 0x7F800000#32
  let main_v5 : FVec F S16x64x64 .f32 := broadcastInDim S16x64x64 ![] bcast_S_S16x64x64 main_cst_0
  let main_v6 : IVec S16x64x64 1 := cmpf .olt main_v4 main_v5
  let main_c_1 : IVec S_ 1 := constantI S_ 1 1#1
  let main_v7 : IVec S_ 1 := (fun x v => Host.reduce IntOp.andi x v reducesTo_S16x64x64_S_d0_1_2 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S128x64x8192 : Shape := ⟨3, ![128, 64, 8192]⟩
abbrev S128 : Shape := ⟨1, ![128]⟩
abbrev S16x64x64 : Shape := ⟨3, ![16, 64, 64]⟩
abbrev S16x64 : Shape := ⟨2, ![16, 64]⟩
abbrev S_ : Shape := ⟨0, ![]⟩
abbrev S128x1 : Shape := ⟨2, ![128, 1]⟩
abbrev S128x64x64 : Shape := ⟨3, ![128, 64, 64]⟩
abbrev S128x64 : Shape := ⟨2, ![128, 64]⟩
abbrev S128x64x1 : Shape := ⟨3, ![128, 64, 1]⟩
abbrev S2x64x8192 : Shape := ⟨3, ![2, 64, 8192]⟩
abbrev S2x64x64 : Shape := ⟨3, ![2, 64, 64]⟩
abbrev S2x64x1 : Shape := ⟨3, ![2, 64, 1]⟩

abbrev nBuf : Space → Nat
  | .hbm => 24
  | .vmem => 8
  | .smem => 0
  | _ => 0

abbrev bufTy : (tb : Table) → Fin (tcTables nBuf tb) → BufTy
  | .hbm, ⟨0, _⟩ => ⟨S128x64x8192, .f32⟩
  | .hbm, ⟨1, _⟩ => ⟨S128, .i32⟩
  | .hbm, ⟨2, _⟩ => ⟨S16x64x64, .f32⟩
  | .hbm, ⟨3, _⟩ => ⟨S16x64, .f32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S128x64x64, .f32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x64, .f32⟩
  | .hbm, ⟨22, _⟩ => ⟨S128x64x1, .f32⟩
  | .hbm, ⟨23, _⟩ => ⟨S128x64x8192, .f32⟩
  | .local _ .vmem, ⟨0, _⟩ => ⟨S2x64x8192, .f32⟩
  | .local _ .vmem, ⟨1, _⟩ => ⟨S2x64x8192, .f32⟩
  | .local _ .vmem, ⟨2, _⟩ => ⟨S2x64x64, .f32⟩
  | .local _ .vmem, ⟨3, _⟩ => ⟨S2x64x64, .f32⟩
  | .local _ .vmem, ⟨4, _⟩ => ⟨S2x64x1, .f32⟩
  | .local _ .vmem, ⟨5, _⟩ => ⟨S2x64x1, .f32⟩
  | .local _ .vmem, ⟨6, _⟩ => ⟨S2x64x8192, .f32⟩
  | .local _ .vmem, ⟨7, _⟩ => ⟨S2x64x8192, .f32⟩
  | _, _ => ⟨S128x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  shapeCasts_S128x64_S128x64x1 : S128x64.ShapeCasts S128x64x1
  inb_S2x64x8192_S2x64x8192_0_0_0 : ∀ a, (![0, 0, 0] : Fin 3 → Nat) a + S2x64x8192.size a ≤ S2x64x8192.size a
  h_S2x64x8192 : 0 < S2x64x8192.numel
  inb_S2x64x64_S2x64x64_0_0_0 : ∀ a, (![0, 0, 0] : Fin 3 → Nat) a + S2x64x64.size a ≤ S2x64x64.size a
  h_S2x64x64 : 0 < S2x64x64.numel
  shapeCasts_S2x64x64_S2x64x64 : S2x64x64.ShapeCasts S2x64x64
  inb_S2x64x1_S2x64x1_0_0_0 : ∀ a, (![0, 0, 0] : Fin 3 → Nat) a + S2x64x1.size a ≤ S2x64x1.size a
  h_S2x64x1 : 0 < S2x64x1.numel
  shapeCasts_S2x64x1_S2x64x1 : S2x64x1.ShapeCasts S2x64x1
  bitsLt_bf16_f32 : FTy.bits .bf16 < FTy.bits .f32
  broadcasts_S2x64x1_S2x64x8192 : S2x64x1.Broadcasts S2x64x8192
  gather_S16x64x64_S128x1_S128x64x64_12_0_n_n_0_1_16464_wf : GatherDims.WF S16x64x64 S128x1 S128x64x64 [1, 2] [0] [] [0] [] 1 ![1, 64, 64]
  gather_S16x64_S128x1_S128x64_1_0_n_n_0_1_164_wf : GatherDims.WF S16x64 S128x1 S128x64 [1] [0] [] [0] [] 1 ![1, 64]
  dot_S2x64x64_S2x64x8192_S2x64x8192_2_1_1_2_0_0_wf : DotDims.WF S2x64x64 S2x64x8192 S2x64x8192 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x8192.size a ≤ S128x64x8192.size a
  hwx0_0 : ∀ i : grid0.Coords, EltTy.bits .f32 = 32 ∨ (Rect.block (s := S128x64x8192) S2x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S128x64x64.size a
  hwx0_1 : ∀ i : grid0.Coords, EltTy.bits .f32 = 32 ∨ (Rect.block (s := S128x64x64) S2x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64x1.size a ≤ S128x64x1.size a
  hwx0_2 : ∀ i : grid0.Coords, EltTy.bits .f32 = 32 ∨ (Rect.block (s := S128x64x1) S2x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x8192.size a ≤ S128x64x8192.size a
  hwx0_3 : ∀ i : grid0.Coords, EltTy.bits .f32 = 32 ∨ (Rect.block (s := S128x64x8192) S2x64x8192.size (cc0_transform_3 i) (hinb0_3 i)).WholeWords (EltTy.packing .f32)

variable [Facts₀]

def gather_S16x64x64_S128x1_S128x64x64_12_0_n_n_0_1_16464 : GatherDims S16x64x64 S128x1 S128x64x64 where
  offsetDims := [1, 2]
  collapsedSliceDims := [0]
  operandBatchingDims := []
  startIndicesBatchingDims := []
  startIndexMap := [0]
  indexVectorDim := 1
  sliceSizes := ![1, 64, 64]
  wf := gather_S16x64x64_S128x1_S128x64x64_12_0_n_n_0_1_16464_wf
def gather_S16x64_S128x1_S128x64_1_0_n_n_0_1_164 : GatherDims S16x64 S128x1 S128x64 where
  offsetDims := [1]
  collapsedSliceDims := [0]
  operandBatchingDims := []
  startIndicesBatchingDims := []
  startIndexMap := [0]
  indexVectorDim := 1
  sliceSizes := ![1, 64]
  wf := gather_S16x64_S128x1_S128x64_1_0_n_n_0_1_164_wf
def dot_S2x64x64_S2x64x8192_S2x64x8192_2_1_1_2_0_0 : DotDims S2x64x64 S2x64x8192 S2x64x8192 where
  lhsContracting := [2]
  rhsContracting := [1]
  lhsNonContracting := [1]
  rhsNonContracting := [2]
  lhsBatch := [0]
  rhsBatch := [0]
  wf := dot_S2x64x64_S2x64x8192_S2x64x8192_2_1_1_2_0_0_wf

abbrev win0_0 : Pipeline.Window sig grid0 :=
  Pipeline.Window.ofSpec (Memref.whole main_arg0) S2x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2x64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x8192 : Shape := ⟨3, ![128, 64, 8192]⟩
abbrev S128 : Shape := ⟨1, ![128]⟩
abbrev S16x64x64 : Shape := ⟨3, ![16, 64, 64]⟩
abbrev S16x64 : Shape := ⟨2, ![16, 64]⟩
abbrev S_ : Shape := ⟨0, ![]⟩
abbrev S128x1 : Shape := ⟨2, ![128, 1]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 26
  | .vmem => 0
  | .smem => 0
  | _ => 0

abbrev bufTy : (tb : Table) → Fin (tcTables nBuf tb) → BufTy
  | .hbm, ⟨0, _⟩ => ⟨S128x64x8192, .f32⟩
  | .hbm, ⟨1, _⟩ => ⟨S128, .i32⟩
  | .hbm, ⟨2, _⟩ => ⟨S16x64x64, .f32⟩
  | .hbm, ⟨3, _⟩ => ⟨S16x64, .f32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S128x64x64, .f32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x64, .f32⟩
  | .hbm, ⟨22, _⟩ => ⟨S128x64x8192, .f32⟩
  | .hbm, ⟨23, _⟩ => ⟨S128x64x1, .f32⟩
  | .hbm, ⟨24, _⟩ => ⟨S128x64x8192, .f32⟩
  | .hbm, ⟨25, _⟩ => ⟨S128x64x8192, .f32⟩
  | _, _ => ⟨S128x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x64_S128x64x1_0_1 : S128x64.BroadcastsInDim S128x64x1 (![0, 1] : Fin 2 → Fin S128x64x1.rank)
  bcast_S128x64x1_S128x64x8192_0_1_2 : S128x64x1.BroadcastsInDim S128x64x8192 (![0, 1, 2] : Fin 3 → Fin S128x64x8192.rank)
  gather_S16x64x64_S128x1_S128x64x64_12_0_n_n_0_1_16464_wf : GatherDims.WF S16x64x64 S128x1 S128x64x64 [1, 2] [0] [] [0] [] 1 ![1, 64, 64]
  gather_S16x64_S128x1_S128x64_1_0_n_n_0_1_164_wf : GatherDims.WF S16x64 S128x1 S128x64 [1] [0] [] [0] [] 1 ![1, 64]
  dot_S128x64x64_S128x64x8192_S128x64x8192_2_1_1_2_0_0_wf : DotDims.WF S128x64x64 S128x64x8192 S128x64x8192 [2] [1] [1] [2] [0] [0]

variable [Facts₀]

def gather_S16x64x64_S128x1_S128x64x64_12_0_n_n_0_1_16464 : GatherDims S16x64x64 S128x1 S128x64x64 where
  offsetDims := [1, 2]
  collapsedSliceDims := [0]
  operandBatchingDims := []
  startIndicesBatchingDims := []
  startIndexMap := [0]
  indexVectorDim := 1
  sliceSizes := ![1, 64, 64]
  wf := gather_S16x64x64_S128x1_S128x64x64_12_0_n_n_0_1_16464_wf
def gather_S16x64_S128x1_S128x64_1_0_n_n_0_1_164 : GatherDims S16x64 S128x1 S128x64 where
  offsetDims := [1]
  collapsedSliceDims := [0]
  operandBatchingDims := []
  startIndicesBatchingDims := []
  startIndexMap := [0]
  indexVectorDim := 1
  sliceSizes := ![1, 64]
  wf := gather_S16x64_S128x1_S128x64_1_0_n_n_0_1_164_wf
def dot_S128x64x64_S128x64x8192_S128x64x8192_2_1_1_2_0_0 : DotDims S128x64x64 S128x64x8192 S128x64x8192 where
  lhsContracting := [2]
  rhsContracting := [1]
  lhsNonContracting := [1]
  rhsNonContracting := [2]
  lhsBatch := [0]
  rhsBatch := [0]
  wf := dot_S128x64x64_S128x64x8192_S128x64x8192_2_1_1_2_0_0_wf

class Facts : Prop extends Facts₀ where

variable [Facts]
-- ==== Proof.Spec.lean ====
/-
  The function both programs compute, over the extended reals.

  For a batch of 128 samples, each with a 64-channel signal of 8192 time steps, every sample is mixed
  by its own 64 × 64 matrix and shifted by its own 64-vector of offsets:
      out[s, o, t] = (Σ_{c < 64} w[s, o, c] · x[s, c, t]) + b[s, o].
  Here `w` and `b` are the per-sample matrices and offsets already selected (both programs select them
  from the 16 subjects' tables by the same index computation, so the selection is carried as one opaque
  array on both sides and never opened).  The sum is a finite sum in the commutative monoid of extended
  reals, so no order of summation and no finiteness of the inputs is involved.
-/
import Idealize.ShloMosaic.PureOps.Ideal
import Idealize.ShloMosaic.Lib.ValueIdx

noncomputable section

namespace Cert.Mix

open Idealize.ShloMosaic Idealize.ShloMosaic.ValueIdx

/-- The signal's shape: sample, channel, time. -/
abbrev SX : Shape := ⟨3, ![128, 64, 8192]⟩
/-- The per-sample matrices' shape: sample, output channel, input channel. -/
abbrev SW : Shape := ⟨3, ![128, 64, 64]⟩
/-- The per-sample offsets' shape: sample, output channel. -/
abbrev SB : Shape := ⟨2, ![128, 64]⟩

/-- One entry of the result, at sample `s`, output channel `o`, time `t`:
    the row `o` of sample `s`'s matrix against the column `t` of its signal, plus the offset. -/
def mixAt (x : SX.Idx → EReal) (w : SW.Idx → EReal) (b : SB.Idx → EReal)
    (s : Fin 128) (o : Fin 64) (t : Fin 8192) : EReal :=
  (∑ c : Fin 64, w (ix3 s o c) * x (ix3 s c t)) + b (ix2 s o)

/-- The whole result array, index by index. -/
def mix (x : SX.Idx → EReal) (w : SW.Idx → EReal) (b : SB.Idx → EReal) : SX.Idx → EReal :=
  fun i => mixAt x w b (i 0) (i 1) (i 2)

theorem mix_apply (x : SX.Idx → EReal) (w : SW.Idx → EReal) (b : SB.Idx → EReal)
    (s : Fin 128) (o : Fin 64) (t : Fin 8192) : mix x w b (ix3 s o t) = mixAt x w b s o t := rfl

end Cert.Mix

end
-- ==== Proof.RefMix.lean ====
/-
  The reference computes the per-sample mixing.

  Its last operation adds two arrays: the batched product of the selected matrices with the signal
  (read at (s, o, t) as the sum over the contracted channel c of w[s, o, c] · x[s, c, t]) and the selected
  offsets broadcast first to a trailing unit axis and then along time (read at (s, o, t) as b[s, o]).
  The two selections (row gathers by the subject indices) are left as they are: they are the arrays `w`
  and `b` of the specification.
-/
import proofs.«134217_j67284957659761_2_alg».proof.Proof.Gen.ReferenceIdeal.Read
import proofs.«134217_j67284957659761_2_alg».proof.Proof.Spec

noncomputable section

namespace Cert.ReferenceIdeal.RefMix

open Cert.ReferenceIdeal Cert.ReferenceIdeal.Read Idealize.ShloMosaic Idealize.ShloMosaic.ValueIdx

/-- The reference's result is the mixing of the signal by the selected matrices and offsets. -/
theorem result_eq (x0 : (⟨S128x64x8192, .f32⟩ : BufTy).Contents (Elt Ideal)) (x1 : (⟨S128, .i32⟩ : BufTy).Contents (Elt Ideal))
    (x2 : (⟨S16x64x64, .f32⟩ : BufTy).Contents (Elt Ideal)) (x3 : (⟨S16x64, .f32⟩ : BufTy).Contents (Elt Ideal)) :
    val_main_v17 (F := Ideal) x0 x1 x2 x3
      = Cert.Mix.mix x0 (val_main_v6 (F := Ideal) x1 x2) (val_main_v13 (F := Ideal) x1 x3) := by
  funext i
  obtain ⟨s, o, t, rfl⟩ : ∃ (s : Fin 128) (o : Fin 64) (t : Fin 8192), i = ix3 s o t := ⟨i 0, i 1, i 2, eq_ix3 i⟩
  have hl : ∀ k : Fin 64, lidx_main_v14 (ix3 s o t) k = ix3 s o k := fun k => funext fun a => by
    match a with | ⟨0, _⟩ => rfl | ⟨1, _⟩ => rfl | ⟨2, _⟩ => rfl
  have hr : ∀ k : Fin 64, ridx_main_v14 (ix3 s o t) k = ix3 s k t := fun k => funext fun a => by
    match a with | ⟨0, _⟩ => rfl | ⟨1, _⟩ => rfl | ⟨2, _⟩ => rfl
  have hb : idx_main_v15 (idx_main_v16 (ix3 s o t)) = ix2 s o := funext fun a => by
    match a with | ⟨0, _⟩ => rfl | ⟨1, _⟩ => rfl
  rw [Cert.Mix.mix_apply, val_main_v17_apply, val_main_v14_apply, val_main_v16_apply, val_main_v15_apply]
  simp only [hl, hr, hb]
  rfl

end Cert.ReferenceIdeal.RefMix

end
-- ==== Proof.BlockMix.lean ====
/-
  What the kernel body stores, read at one index of its block.

  At a grid point the body holds a block of 2 samples: the signal block `x` (2 × 64 × 8192), the matrices
  block `w` (2 × 64 × 64) and the offsets block `b` (2 × 64 × 1, a column).  It stores, at (s, o, t),
      (Σ_{c < 64} w[s, o, c] · x[s, c, t]) + b[s, o, 0]:
  the batched matrix product into a zero accumulator is the plain sum over the contracted channel (the
  change of float format on the way into the product is the identity on extended reals), and the
  broadcast of the column along time reads the column at time 0.
-/
import proofs.«134217_j67284957659761_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockMix

open Cert.KernelIdeal Cert.KernelIdeal.Gen Idealize.ShloMosaic Idealize.ShloMosaic.ValueIdx

/-! ## The operand indices of the batched product -/

theorem lhs0 (i : S2x64x8192.Idx) (q : dot_S2x64x64_S2x64x8192_S2x64x8192_2_1_1_2_0_0.contr.Idx) :
    (dot_S2x64x64_S2x64x8192_S2x64x8192_2_1_1_2_0_0.lhsIdx i q 0).val = (i 0).val := by
  unfold DotDims.lhsIdx
  rw [dif_pos (show (0 : Fin S2x64x64.rank) ∈ dot_S2x64x64_S2x64x8192_S2x64x8192_2_1_1_2_0_0.lhsBatch by decide)]
  rfl
theorem lhs1 (i : S2x64x8192.Idx) (q : dot_S2x64x64_S2x64x8192_S2x64x8192_2_1_1_2_0_0.contr.Idx) :
    (dot_S2x64x64_S2x64x8192_S2x64x8192_2_1_1_2_0_0.lhsIdx i q 1).val = (i 1).val := by
  unfold DotDims.lhsIdx
  rw [dif_neg (show ¬(1 : Fin S2x64x64.rank) ∈ dot_S2x64x64_S2x64x8192_S2x64x8192_2_1_1_2_0_0.lhsBatch by decide), dif_pos (show (1 : Fin S2x64x64.rank) ∈ dot_S2x64x64_S2x64x8192_S2x64x8192_2_1_1_2_0_0.lhsNonContracting by decide)]
  rfl
theorem lhs2 (i : S2x64x8192.Idx) (q : dot_S2x64x64_S2x64x8192_S2x64x8192_2_1_1_2_0_0.contr.Idx) :
    (dot_S2x64x64_S2x64x8192_S2x64x8192_2_1_1_2_0_0.lhsIdx i q 2).val = (q ⟨0, by decide⟩).val :=
  dot_S2x64x64_S2x64x8192_S2x64x8192_2_1_1_2_0_0.lhsIdx_val_of_single rfl i q
theorem rhs0 (i : S2x64x8192.Idx) (q : dot_S2x64x64_S2x64x8192_S2x64x8192_2_1_1_2_0_0.contr.Idx) :
    (dot_S2x64x64_S2x64x8192_S2x64x8192_2_1_1_2_0_0.rhsIdx i q 0).val = (i 0).val := by
  unfold DotDims.rhsIdx
  rw [dif_pos (show (0 : Fin S2x64x8192.rank) ∈ dot_S2x64x64_S2x64x8192_S2x64x8192_2_1_1_2_0_0.rhsBatch by decide)]
  rfl
theorem rhs1 (i : S2x64x8192.Idx) (q : dot_S2x64x64_S2x64x8192_S2x64x8192_2_1_1_2_0_0.contr.Idx) :
    (dot_S2x64x64_S2x64x8192_S2x64x8192_2_1_1_2_0_0.rhsIdx i q 1).val = (q ⟨0, by decide⟩).val :=
  dot_S2x64x64_S2x64x8192_S2x64x8192_2_1_1_2_0_0.rhsIdx_val_of_single rfl i q
theorem rhs2 (i : S2x64x8192.Idx) (q : dot_S2x64x64_S2x64x8192_S2x64x8192_2_1_1_2_0_0.contr.Idx) :
    (dot_S2x64x64_S2x64x8192_S2x64x8192_2_1_1_2_0_0.rhsIdx i q 2).val = (i 2).val := by
  unfold DotDims.rhsIdx
  rw [dif_neg (show ¬(2 : Fin S2x64x8192.rank) ∈ dot_S2x64x64_S2x64x8192_S2x64x8192_2_1_1_2_0_0.rhsBatch by decide), dif_pos (show (2 : Fin S2x64x8192.rank) ∈ dot_S2x64x64_S2x64x8192_S2x64x8192_2_1_1_2_0_0.rhsNonContracting by decide)]
  rfl

/-- The batched product into the zero accumulator, at (s, o, t): the sum over the contracted channel
    `c` of the left operand at (s, o, c) times the right operand at (s, c, t). -/
theorem product_apply (l : FVec Ideal S2x64x64 .bf16) (r : FVec Ideal S2x64x8192 .bf16)
    (s : Fin 2) (o : Fin 64) (t : Fin 8192) :
    matmul dot_S2x64x64_S2x64x8192_S2x64x8192_2_1_1_2_0_0 none l r (constant (F := Ideal) S2x64x8192 .f32 0x00000000#32) (ix3 s o t)
      = ∑ c : Fin 64, l (ix3 s o c) * r (ix3 s c t) := by
  simp only [matmul]
  rw [Ideal.matmul_constant_zero_apply, ← Equiv.sum_comp (contrEquiv1 dot_S2x64x64_S2x64x8192_S2x64x8192_2_1_1_2_0_0 64 rfl rfl).symm]
  refine Finset.sum_congr rfl fun k _ => ?_
  have hk := contrEquiv1_symm_val dot_S2x64x64_S2x64x8192_S2x64x8192_2_1_1_2_0_0 64 rfl rfl k
  have el : dot_S2x64x64_S2x64x8192_S2x64x8192_2_1_1_2_0_0.lhsIdx (ix3 s o t) ((contrEquiv1 dot_S2x64x64_S2x64x8192_S2x64x8192_2_1_1_2_0_0 64 rfl rfl).symm k) = ix3 s o k := funext fun a => Fin.ext (by
    match a with
    | ⟨0, _⟩ => exact lhs0 _ _
    | ⟨1, _⟩ => exact lhs1 _ _
    | ⟨2, _⟩ => exact (lhs2 _ _).trans hk)
  have er : dot_S2x64x64_S2x64x8192_S2x64x8192_2_1_1_2_0_0.rhsIdx (ix3 s o t) ((contrEquiv1 dot_S2x64x64_S2x64x8192_S2x64x8192_2_1_1_2_0_0 64 rfl rfl).symm k) = ix3 s k t := funext fun a => Fin.ext (by
    match a with
    | ⟨0, _⟩ => exact rhs0 _ _
    | ⟨1, _⟩ => exact (rhs1 _ _).trans hk
    | ⟨2, _⟩ => exact rhs2 _ _)
  rw [el, er]

/-- The offsets column broadcast along time, at (s, o, t): the column at (s, o, 0). -/
theorem column_apply (v : FVec Ideal S2x64x1 .f32) (s : Fin 2) (o : Fin 64) (t : Fin 8192) :
    broadcastTo S2x64x8192 v broadcasts_S2x64x1_S2x64x8192 (ix3 s o t) = v (ix3 s o 0) :=
  broadcastTo_apply v broadcasts_S2x64x1_S2x64x8192 (ix3 s o t) (ix3 s o 0) (fun a => match a with
    | ⟨0, _⟩ => by show s.val = if (2 : Nat) = 1 then 0 else s.val; rw [if_neg (by decide)]
    | ⟨1, _⟩ => by show o.val = if (64 : Nat) = 1 then 0 else o.val; rw [if_neg (by decide)]
    | ⟨2, _⟩ => by show 0 = if (1 : Nat) = 1 then 0 else t.val; rw [if_pos rfl])

/-- THE BODY'S STORED VALUE at (s, o, t) of the block, from the three loaded blocks. -/
theorem stored_apply (x : Vec Ideal S2x64x8192 .f32) (w : Vec Ideal S2x64x64 .f32) (b : Vec Ideal S2x64x1 .f32)
    (s : Fin 2) (o : Fin 64) (t : Fin 8192) :
    k0_pay1 (F := Ideal) x w b (ix3 s o t) = (∑ c : Fin 64, w (ix3 s o c) * x (ix3 s c t)) + b (ix3 s o 0) := by
  unfold k0_pay1
  refine (addf_apply _ _ (ix3 s o t)).trans ?_
  rw [product_apply, column_apply]
  simp only [truncf_apply, shapeCast_self]

end Cert.KernelIdeal.BlockMix

end
-- ==== Proof.KernelMix.lean ====
/-
  The kernel's result array is the per-sample mixing.

  The grid has 64 points; point `n` works on samples 2n and 2n+1: its three input blocks are rows
  2n, 2n+1 of the signal, of the selected matrices and of the selected offsets (a column array
  128 × 64 × 1), and it writes rows 2n, 2n+1 of the result.  Entry (s, o, t) of what point `n` writes is
  entry (2n+s, o, t) of the mixing of the three whole arrays; the 64 blocks tile the result array (the
  point that covers sample S is S / 2), so the array ends holding the mixing.  The arrays the region
  finds are then named by the launch memory: the signal is an argument, the matrices and offsets are the
  rows of the two tables selected by the subject indices (wrapped from negative values as the program
  does, and clamped by the gather), the offsets reshaped to a column.
-/
import proofs.«134217_j67284957659761_2_alg».proof.Proof.Gen.KernelIdeal.Value
import proofs.«134217_j67284957659761_2_alg».proof.Proof.BlockMix
import proofs.«134217_j67284957659761_2_alg».proof.Proof.Spec
import Idealize.ShloMosaic.Lib.Pipeline.Value
import Idealize.ShloMosaic.Lib.StableHlo.Run
import Idealize.ShloMosaic.Lib.ValueIdx

noncomputable section

namespace Cert.KernelIdeal.KernelMix

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The selected matrices and offsets, as functions of the arguments -/

/-- Each sample's subject index as the gathers take it: a negative index has 16 added, and the
    vector is given a trailing unit axis. -/
def subject (x1 : (⟨S128, .i32⟩ : BufTy).Contents (Elt Ideal)) : (⟨S128x1, .i32⟩ : BufTy).Contents (Elt Ideal) :=
  broadcastInDim S128x1 ![0] bcast_S128_S128x1_0
    (select (cmpi .slt x1 (broadcastInDim S128 ![] bcast_S_S128 (constantI S_ 32 0#32)))
      (addi x1 (broadcastInDim S128 ![] bcast_S_S128 (constantI S_ 32 16#32))) x1)

/-- Each sample's 64 × 64 matrix: the row of the 16 subjects' table its subject index selects. -/
def matrices (x2 : (⟨S16x64x64, .f32⟩ : BufTy).Contents (Elt Ideal)) (x1 : (⟨S128, .i32⟩ : BufTy).Contents (Elt Ideal)) :
    (⟨S128x64x64, .f32⟩ : BufTy).Contents (Elt Ideal) :=
  Host.gather gather_S16x64x64_S128x1_S128x64x64_12_0_n_n_0_1_16464 x2 (subject x1)

/-- Each sample's 64 offsets: the row of the 16 subjects' table its subject index selects. -/
def offsets (x3 : (⟨S16x64, .f32⟩ : BufTy).Contents (Elt Ideal)) (x1 : (⟨S128, .i32⟩ : BufTy).Contents (Elt Ideal)) :
    (⟨S128x64, .f32⟩ : BufTy).Contents (Elt Ideal) :=
  Host.gather gather_S16x64_S128x1_S128x64_1_0_n_n_0_1_164 x3 (subject x1)

variable (m : (ℓ : Loc nD τ sig) → Buf (Elt Ideal) ℓ) (ρ : Dev nD → PrngReg)

/-- The matrices array the region finds is the selected matrices. -/
theorem V_matrices (c : Dev nD) : (V m c main_v6 : S128x64x64.Idx → EReal)
    = matrices (m ((c : Thread nD τ).loc main_arg2)) (m ((c : Thread nD τ).loc main_arg1)) := by
  dsimp only [Gen.V, Gen.hostOps0]; after_results; rfl

/-- The offsets array the region finds is the selected offsets reshaped to a column. -/
theorem V_offsets (c : Dev nD) : (V m c main_v14 : S128x64x1.Idx → EReal)
    = shapeCast S128x64x1 (offsets (m ((c : Thread nD τ).loc main_arg3)) (m ((c : Thread nD τ).loc main_arg1))) shapeCasts_S128x64_S128x64x1 := by
  dsimp only [Gen.V, Gen.hostOps0]; after_results; rfl

/-- The column read back at (s, o, 0) is the offsets at (s, o): the reshape keeps the row-major position. -/
theorem column_eq (c : Dev nD) : (fun j : Cert.Mix.SB.Idx => (V m c main_v14 : S128x64x1.Idx → EReal) (ix3 (j 0) (j 1) 0))
    = offsets (m ((c : Thread nD τ).loc main_arg3)) (m ((c : Thread nD τ).loc main_arg1)) := by
  funext j
  rw [V_offsets]
  refine shapeCast_apply _ shapeCasts_S128x64_S128x64x1 (ix3 (j 0) (j 1) 0) j ?_
  rw [Shape.rowMajor_val_two, Shape.rowMajor_val_three]
  show (j 0).val * 64 + (j 1).val = ((j 0).val * 64 + (j 1).val) * 1 + 0
  omega

/-! ## The blocks of a grid point -/

theorem hz : (![0, 0, 0] : Fin 3 → Nat) = fun _ => 0 := funext fun a => by fin_cases a <;> rfl

/-- Every window's block index at point `n` is (n, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The signal block at point `n`, entry (s, c, t), is the signal at (2n+s, c, t). -/
theorem signal_blk (c : Dev nD) (t : Fin cfg0.N) (s : Fin 2) (ch : Fin 64) (tt : Fin 8192) (i : S128x64x8192.Idx)
    (h0 : (i 0).val = 2 * t.val + s.val) (h1 : (i 1).val = ch.val) (h2 : (i 2).val = tt.val) :
    (iblk m c 0 t : Vec Ideal S2x64x8192 .f32) (ix3 s ch tt) = (V m c main_arg0 : S128x64x8192.Idx → EReal) i := by
  obtain ⟨e0, e1, e2, -⟩ := idx_facts t
  show (V m c main_arg0 : S128x64x8192.Idx → EReal) (((cfg0.win 0).blk t).view.emb (ix3 s ch tt)) = _
  refine congrArg (V m c main_arg0 : S128x64x8192.Idx → EReal) (funext fun a => Fin.ext ?_)
  match a with
  | ⟨0, _⟩ => show win0_0.index t (0 : Fin 3) * 2 + 1 * s.val = (i 0).val; omega
  | ⟨1, _⟩ => show win0_0.index t (1 : Fin 3) * 64 + 1 * ch.val = (i 1).val; omega
  | ⟨2, _⟩ => show win0_0.index t (2 : Fin 3) * 8192 + 1 * tt.val = (i 2).val; omega

/-- The matrices block at point `n`, entry (s, o, c), is the matrices array at (2n+s, o, c). -/
theorem matrices_blk (c : Dev nD) (t : Fin cfg0.N) (s : Fin 2) (o : Fin 64) (ch : Fin 64) (i : S128x64x64.Idx)
    (h0 : (i 0).val = 2 * t.val + s.val) (h1 : (i 1).val = o.val) (h2 : (i 2).val = ch.val) :
    (iblk m c 1 t : Vec Ideal S2x64x64 .f32) (ix3 s o ch) = (V m c main_v6 : S128x64x64.Idx → EReal) i := by
  obtain ⟨-, -, -, e0, e1, e2, -⟩ := idx_facts t
  show (V m c main_v6 : S128x64x64.Idx → EReal) (((cfg0.win 1).blk t).view.emb (ix3 s o ch)) = _
  refine congrArg (V m c main_v6 : S128x64x64.Idx → EReal) (funext fun a => Fin.ext ?_)
  match a with
  | ⟨0, _⟩ => show win0_1.index t (0 : Fin 3) * 2 + 1 * s.val = (i 0).val; omega
  | ⟨1, _⟩ => show win0_1.index t (1 : Fin 3) * 64 + 1 * o.val = (i 1).val; omega
  | ⟨2, _⟩ => show win0_1.index t (2 : Fin 3) * 64 + 1 * ch.val = (i 2).val; omega

/-- The offsets block at point `n`, entry (s, o, 0), is the offsets column at (2n+s, o, 0). -/
theorem offsets_blk (c : Dev nD) (t : Fin cfg0.N) (s : Fin 2) (o : Fin 64) (i : S128x64x1.Idx)
    (h0 : (i 0).val = 2 * t.val + s.val) (h1 : (i 1).val = o.val) (h2 : (i 2).val = 0) :
    (iblk m c 2 t : Vec Ideal S2x64x1 .f32) (ix3 s o 0) = (V m c main_v14 : S128x64x1.Idx → EReal) i := by
  obtain ⟨-, -, -, -, -, -, e0, e1, e2, -⟩ := idx_facts t
  show (V m c main_v14 : S128x64x1.Idx → EReal) (((cfg0.win 2).blk t).view.emb (ix3 s o 0)) = _
  refine congrArg (V m c main_v14 : S128x64x1.Idx → EReal) (funext fun a => Fin.ext ?_)
  match a with
  | ⟨0, _⟩ => show win0_2.index t (0 : Fin 3) * 2 + 1 * s.val = (i 0).val; omega
  | ⟨1, _⟩ => show win0_2.index t (1 : Fin 3) * 64 + 1 * o.val = (i 1).val; omega
  | ⟨2, _⟩ => show win0_2.index t (2 : Fin 3) * 1 + 1 * 0 = (i 2).val; omega

/-- The mixing of the three arrays as the region finds them. -/
abbrev result (c : Dev nD) : S128x64x8192.Idx → EReal :=
  Cert.Mix.mix (V m c main_arg0) (V m c main_v6) (fun j => (V m c main_v14 : S128x64x1.Idx → EReal) (ix3 (j 0) (j 1) 0))

/-- What point `n` stores at (s, o, t) is the mixing's entry at sample S = 2n+s. -/
theorem stored_eq (c : Dev nD) (t : Fin cfg0.N) (s : Fin 2) (o : Fin 64) (tt : Fin 8192) (S : Fin 128) (hS : S.val = 2 * t.val + s.val) :
    k0_pay1 (F := Ideal) (iblk m c 0 t) (iblk m c 1 t) (iblk m c 2 t) (ix3 s o tt)
      = Cert.Mix.mixAt (V m c main_arg0) (V m c main_v6) (fun j => (V m c main_v14 : S128x64x1.Idx → EReal) (ix3 (j 0) (j 1) 0)) S o tt := by
  have hw : ∀ k : Fin 64, (iblk m c 1 t : Vec Ideal S2x64x64 .f32) (ix3 s o k) = (V m c main_v6 : S128x64x64.Idx → EReal) (ix3 S o k) :=
    fun k => matrices_blk m c t s o k (ix3 S o k) hS rfl rfl
  have hx : ∀ k : Fin 64, (iblk m c 0 t : Vec Ideal S2x64x8192 .f32) (ix3 s k tt) = (V m c main_arg0 : S128x64x8192.Idx → EReal) (ix3 S k tt) :=
    fun k => signal_blk m c t s k tt (ix3 S k tt) hS rfl rfl
  have hb : (iblk m c 2 t : Vec Ideal S2x64x1 .f32) (ix3 s o 0) = (V m c main_v14 : S128x64x1.Idx → EReal) (ix3 S o 0) :=
    offsets_blk m c t s o (ix3 S o 0) hS rfl rfl
  refine (BlockMix.stored_apply (iblk m c 0 t) (iblk m c 1 t) (iblk m c 2 t) s o tt).trans ?_
  unfold Cert.Mix.mixAt
  exact congrArg₂ (fun a b : EReal => a + b)
    (Finset.sum_congr rfl fun k _ => congrArg₂ (fun a b : EReal => a * b) (hw k) (hx k)) hb

/-! ## From the blocks to the array -/

/-- What point `n` writes back is block `n` of the mixing. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2x64x8192) hz, View.ld_unit_zero (S := S2x64x64) hz, View.ld_unit_zero (S := S2x64x1) hz]
  obtain ⟨-, -, -, -, -, -, -, -, -, e0, e1, e2⟩ := idx_facts t
  funext j
  obtain ⟨s, o, tt, rfl⟩ : ∃ (s : Fin 2) (o : Fin 64) (tt : Fin 8192), j = ix3 s o tt := ⟨j 0, j 1, j 2, eq_ix3 j⟩
  have hN : cfg0.N = 64 := N_0
  have hlt : 2 * t.val + s.val < 128 := by have := t.isLt; have := s.isLt; omega
  show k0_pay1 (F := Ideal) (iblk m c 0 t) (iblk m c 1 t) (iblk m c 2 t) (ix3 s o tt)
    = result m c (((cfg0.win 3).blk t).view.emb (ix3 s o tt))
  have hemb : ((cfg0.win 3).blk t).view.emb (ix3 s o tt) = (ix3 ⟨2 * t.val + s.val, hlt⟩ o tt : S128x64x8192.Idx) :=
    funext fun a => Fin.ext (by
      match a with
      | ⟨0, _⟩ => show win0_3.index t (0 : Fin 3) * 2 + 1 * s.val = 2 * t.val + s.val; omega
      | ⟨1, _⟩ => show win0_3.index t (1 : Fin 3) * 64 + 1 * o.val = o.val; omega
      | ⟨2, _⟩ => show win0_3.index t (2 : Fin 3) * 8192 + 1 * tt.val = tt.val; omega)
  rw [hemb]
  exact stored_eq m c t s o tt ⟨2 * t.val + s.val, hlt⟩ rfl

/-- An index of the result array is in point `n`'s block iff each coordinate is in the block's range. -/
theorem mem_blk (t : Fin cfg0.N) (i : S128x64x8192.Idx) :
    i ∈ ((cfg0.win 3).blk t).view.set ↔ ∀ a : Fin 3, win0_3.index t a * S2x64x8192.size a ≤ (i a).val ∧ (i a).val < win0_3.index t a * S2x64x8192.size a + S2x64x8192.size a := by
  show i ∈ ((View.whole main_v15).slice (win0_3.rect t)).set ↔ _
  rw [View.set_slice_whole, Rect.mem_set_unit]
  exact Iff.rfl

/-- Every index of the result array is in some point's block: sample S is covered by point S / 2. -/
theorem covered (i : S128x64x8192.Idx) :
    ∃ t : Fin cfg0.N, (cfg0.win 3).flush t = true ∧ i ∈ ((cfg0.win 3).blk t).view.set := by
  have hN : cfg0.N = 64 := N_0
  have hi0 : (i 0).val < 128 := (i 0).isLt
  have hi1 : (i 1).val < 64 := (i 1).isLt
  have hi2 : (i 2).val < 8192 := (i 2).isLt
  obtain ⟨t, ht⟩ : ∃ t : Fin cfg0.N, t.val = (i 0).val / 2 := ⟨⟨(i 0).val / 2, by omega⟩, rfl⟩
  obtain ⟨-, -, -, -, -, -, -, -, -, e0, e1, e2⟩ := idx_facts t
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 64 ≤ (i 1).val ∧ (i 1).val < win0_3.index t (1 : Fin 3) * 64 + 64; omega
  | ⟨2, _⟩ => show win0_3.index t (2 : Fin 3) * 8192 ≤ (i 2).val ∧ (i 2).val < win0_3.index t (2 : Fin 3) * 8192 + 8192; omega

/-- The result array after the run is the mixing of the arrays the region finds, -/
theorem final_found (c : Dev nD) : (dats m 0 c).arrAt 3 cfg0.N = result m c :=
  (dats m 0 c).arrAt_eq_of_cover 3 (result m c) (fun t _ => flushed_eq m c t) covered

/-- that is, of the signal argument with the matrices and offsets selected from the two tables. -/
theorem final (c : Dev nD) : (dats m 0 c).arrAt 3 cfg0.N
    = Cert.Mix.mix (m ((c : Thread nD τ).loc main_arg0))
        (matrices (m ((c : Thread nD τ).loc main_arg2)) (m ((c : Thread nD τ).loc main_arg1)))
        (offsets (m ((c : Thread nD τ).loc main_arg3)) (m ((c : Thread nD τ).loc main_arg1))) := by
  rw [final_found]
  unfold result
  rw [column_eq, V_matrices, V_main_arg0]

/-! ## The run, read -/

/-- Every weakly fair execution of the kernel's program ends with the result array at the mixing and
    the arguments unchanged. -/
theorem run : θ_run defs (onTc (τ := τ) (main (F := Ideal))) ⟨m, fun _ => 0, ρ⟩ fun r => ∀ c : Dev nD,
      r.2.mem ((c : Thread nD τ).loc main_v15)
        = Cert.Mix.mix (m ((c : Thread nD τ).loc main_arg0))
            (matrices (m ((c : Thread nD τ).loc main_arg2)) (m ((c : Thread nD τ).loc main_arg1)))
            (offsets (m ((c : Thread nD τ).loc main_arg3)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelMix

end
-- ==== Proof.lean ====
/-
  A per-sample linear map of a multichannel signal.  For 128 samples, each a 64-channel signal of 8192
  time steps, with a subject index per sample and two tables over the 16 subjects (a 64 × 64 matrix and
  a 64-vector of offsets each), both programs compute
      out[s, o, t] = (Σ_{c < 64} W[subj s, o, c] · x[s, c, t]) + b[subj s, o].
  The kernel selects each sample's matrix and offsets before its one grid of 64 points, two samples a
  point, and multiplies block by block; the reference selects them the same way and multiplies all
  samples at once.  Over the extended reals the product into a zero accumulator is the finite sum over
  the contracted channel on both sides, so the two results are the same array, entry by entry
  (`Cert.Mix.mix`), whatever the arguments hold: the finiteness precondition is not used.

  The kernel's idealization rewrites nothing, so `preserves` is trivial; the two kernel frames are the
  generated frame runs, and the reference's frame is its generated run with the result dropped.
-/
import proofs.«134217_j67284957659761_2_alg».proof.Defs
import proofs.«134217_j67284957659761_2_alg».proof.Proof.Gen.Kernel
import proofs.«134217_j67284957659761_2_alg».proof.Proof.Gen.Kernel.Skeleton
import proofs.«134217_j67284957659761_2_alg».proof.Proof.Gen.Kernel.Launch
import proofs.«134217_j67284957659761_2_alg».proof.Proof.Gen.Kernel.Points
import proofs.«134217_j67284957659761_2_alg».proof.Proof.Gen.Kernel.Frame
import proofs.«134217_j67284957659761_2_alg».proof.Proof.Gen.KernelIdeal
import proofs.«134217_j67284957659761_2_alg».proof.Proof.Gen.KernelIdeal.Skeleton
import proofs.«134217_j67284957659761_2_alg».proof.Proof.Gen.KernelIdeal.Launch
import proofs.«134217_j67284957659761_2_alg».proof.Proof.Gen.KernelIdeal.Points
import proofs.«134217_j67284957659761_2_alg».proof.Proof.Gen.KernelIdeal.Frame
import proofs.«134217_j67284957659761_2_alg».proof.Proof.Gen.ReferenceIdeal
import proofs.«134217_j67284957659761_2_alg».proof.Proof.Gen.Pre_finite_inputs
import proofs.«134217_j67284957659761_2_alg».proof.Proof.Gen.KernelIdeal.Value
import proofs.«134217_j67284957659761_2_alg».proof.Proof.Gen.ReferenceIdeal.Run
import proofs.«134217_j67284957659761_2_alg».proof.Proof.Gen.ReferenceIdeal.Read
import proofs.«134217_j67284957659761_2_alg».proof.Proof.Spec
import proofs.«134217_j67284957659761_2_alg».proof.Proof.RefMix
import proofs.«134217_j67284957659761_2_alg».proof.Proof.KernelMix
import Idealize.ShloMosaic.Adequacy
import Idealize.ShloMosaic.Init

noncomputable section

namespace Cert.Proof

open Idealize.ShloMosaic Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two selections are one -/

/-- Both programs select each sample's matrix by the same term of the subject indices and the table. -/
theorem matrices_eq (x1 : (⟨Cert.ReferenceIdeal.S128, .i32⟩ : BufTy).Contents (Elt Ideal))
    (x2 : (⟨Cert.ReferenceIdeal.S16x64x64, .f32⟩ : BufTy).Contents (Elt Ideal)) :
    Cert.ReferenceIdeal.Read.val_main_v6 (F := Ideal) x1 x2 = Cert.KernelIdeal.KernelMix.matrices x2 x1 := rfl

/-- And each sample's offsets. -/
theorem offsets_eq (x1 : (⟨Cert.ReferenceIdeal.S128, .i32⟩ : BufTy).Contents (Elt Ideal))
    (x3 : (⟨Cert.ReferenceIdeal.S16x64, .f32⟩ : BufTy).Contents (Elt Ideal)) :
    Cert.ReferenceIdeal.Read.val_main_v13 (F := Ideal) x1 x3 = Cert.KernelIdeal.KernelMix.offsets x3 x1 := rfl

/-! ## Equal results -/

/-- From memories agreeing on the arguments the kernel's result array ends at the mixing of the signal
    by the selected matrices and offsets, and so does the reference's. -/
theorem algebraic : Cert.algebraic_KernelIdeal_ReferenceIdeal := by
  intro m ρ m' ρ' _ hagree
  refine ⟨_, Cert.KernelIdeal.KernelMix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefMix.result_eq, matrices_eq, offsets_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
